-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part1 {F : FTy → Type} [FloatOps F] (main_arg4 : FVec F S4096x8 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  main_v23

def fn {F : FTy → Type} [FloatOps F] (main_arg0 : FVec F S8x2048x4096 .f32) (main_arg1 : FVec F S4096x4096 .f32) (main_arg2 : FVec F S4096 .f32) (main_arg3 : FVec F S8x4096 .f32) (main_arg4 : FVec F S4096x8 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_v13 main_v16
-- ==== Kernel.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x4096 : Shape := ⟨2, ![1, 4096]⟩
abbrev S16384x4096 : Shape := ⟨2, ![16384, 4096]⟩
abbrev S1024x512 : Shape := ⟨2, ![1024, 512]⟩
abbrev S2048x512 : Shape := ⟨2, ![2048, 512]⟩
abbrev S512x8 : Shape := ⟨2, ![512, 8]⟩
abbrev S8x2048 : Shape := ⟨2, ![8, 2048]⟩
abbrev S1x2048 : Shape := ⟨2, ![1, 2048]⟩
abbrev S1024x2048 : Shape := ⟨2, ![1024, 2048]⟩
abbrev S1024x8 : Shape := ⟨2, ![1024, 8]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S4096x4096, .bf16⟩
  | .hbm, ⟨6, _⟩ => ⟨S4096x8, .bf16⟩
  | .hbm, ⟨7, _⟩ => ⟨S8x4096, .bf16⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S8x2048x4096, .f32⟩
  | .local _ .vmem, ⟨0, _⟩ => ⟨S1024x512, .f32⟩
  | .local _ .vmem, ⟨1, _⟩ => ⟨S1024x512, .f32⟩
  | .local _ .vmem, ⟨2, _⟩ => ⟨S2048x512, .bf16⟩
  | .local _ .vmem, ⟨3, _⟩ => ⟨S2048x512, .bf16⟩
  | .local _ .vmem, ⟨4, _⟩ => ⟨S512x8, .bf16⟩
  | .local _ .vmem, ⟨5, _⟩ => ⟨S512x8, .bf16⟩
  | .local _ .vmem, ⟨6, _⟩ => ⟨S8x2048, .bf16⟩
  | .local _ .vmem, ⟨7, _⟩ => ⟨S8x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x8, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S8x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  bitsLt_bf16_f32 : FTy.bits .bf16 < FTy.bits .f32
  shapeCasts_S4096_S1x4096 : S4096.ShapeCasts S1x4096
  shapeCasts_S8x2048x4096_S16384x4096 : S8x2048x4096.ShapeCasts S16384x4096
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S1024x2048_S1024x2048 : S1024x2048.ShapeCasts S1024x2048
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S16384x4096_S8x2048x4096 : S16384x4096.ShapeCasts S8x2048x4096
  dot_S1024x512_S2048x512_S1024x2048_1_1_0_0_n_n_wf : DotDims.WF S1024x512 S2048x512 S1024x2048 [1] [1] [0] [0] [] []
  dot_S1024x512_S512x8_S1024x8_1_0_0_1_n_n_wf : DotDims.WF S1024x512 S512x8 S1024x8 [1] [0] [0] [1] [] []
  dot_S1024x8_S8x2048_S1024x2048_1_0_0_1_n_n_wf : DotDims.WF S1024x8 S8x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x4096.size a
  hwx0_0 : ∀ i : grid0.Coords, EltTy.bits .f32 = 32 ∨ (Rect.block (s := S16384x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S4096x4096.size a
  hwx0_1 : ∀ i : grid0.Coords, EltTy.bits .bf16 = 32 ∨ (Rect.block (s := S4096x4096) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8.size a ≤ S4096x8.size a
  hwx0_2 : ∀ i : grid0.Coords, EltTy.bits .bf16 = 32 ∨ (Rect.block (s := S4096x8) S512x8.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2048.size a ≤ S8x4096.size a
  hwx0_3 : ∀ i : grid0.Coords, EltTy.bits .bf16 = 32 ∨ (Rect.block (s := S8x4096) S8x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x4096.size a
  hwx0_4 : ∀ i : grid0.Coords, EltTy.bits .f32 = 32 ∨ (Rect.block (s := S1x4096) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S16384x4096.size a
  hwx0_5 : ∀ i : grid0.Coords, EltTy.bits .f32 = 32 ∨ (Rect.block (s := S16384x4096) S1024x2048.size (cc0_transform_5 i) (hinb0_5 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def dot_S1024x512_S512x8_S1024x8_1_0_0_1_n_n : DotDims S1024x512 S512x8 S1024x8 where
  lhsContracting := [1]
  rhsContracting := [0]
  lhsNonContracting := [0]
  rhsNonContracting := [1]
  lhsBatch := []
  rhsBatch := []
  wf := dot_S1024x512_S512x8_S1024x8_1_0_0_1_n_n_wf
def dot_S1024x8_S8x2048_S1024x2048_1_0_0_1_n_n : DotDims S1024x8 S8x2048 S1024x2048 where
  lhsContracting := [1]
  rhsContracting := [0]
  lhsNonContracting := [0]
  rhsNonContracting := [1]
  lhsBatch := []
  rhsBatch := []
  wf := dot_S1024x8_S8x2048_S1024x2048_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S1x1x4096 : Shape := ⟨3, ![1, 1, 4096]⟩
abbrev S8x2048x8 : Shape := ⟨3, ![8, 2048, 8]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S8x2048x4096, .f32⟩
  | .hbm, ⟨6, _⟩ => ⟨S1x1x4096, .f32⟩
  | .hbm, ⟨7, _⟩ => ⟨S8x2048x4096, .f32⟩
  | .hbm, ⟨8, _⟩ => ⟨S8x2048x4096, .f32⟩
  | .hbm, ⟨9, _⟩ => ⟨S8x2048x8, .f32⟩
  | .hbm, ⟨10, _⟩ => ⟨S8x2048x4096, .f32⟩
  | .hbm, ⟨11, _⟩ => ⟨S_, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []
  dot_S8x2048x4096_S4096x8_S8x2048x8_2_0_01_1_n_n_wf : DotDims.WF S8x2048x4096 S4096x8 S8x2048x8 [2] [0] [0, 1] [1] [] []
  dot_S8x2048x8_S8x4096_S8x2048x4096_2_0_01_1_n_n_wf : DotDims.WF S8x2048x8 S8x4096 S8x2048x4096 [2] [0] [0, 1] [1] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def dot_S8x2048x4096_S4096x8_S8x2048x8_2_0_01_1_n_n : DotDims S8x2048x4096 S4096x8 S8x2048x8 where
  lhsContracting := [2]
  rhsContracting := [0]
  lhsNonContracting := [0, 1]
  rhsNonContracting := [1]
  lhsBatch := []
  rhsBatch := []
  wf := dot_S8x2048x4096_S4096x8_S8x2048x8_2_0_01_1_n_n_wf
def dot_S8x2048x8_S8x4096_S8x2048x4096_2_0_01_1_n_n : DotDims S8x2048x8 S8x4096 S8x2048x4096 where
  lhsContracting := [2]
  rhsContracting := [0]
  lhsNonContracting := [0, 1]
  rhsNonContracting := [1]
  lhsBatch := []
  rhsBatch := []
  wf := dot_S8x2048x8_S8x4096_S8x2048x4096_2_0_01_1_n_n_wf

class Facts : Prop extends Facts₀ where

variable [Facts]
-- ==== Proof.Pieces.lean ====
/-
  What one grid step of the kernel leaves behind, as values.

  The body has three shapes of step, by the position k along the innermost (contraction) axis.  At k = 0 it
  first stores the bias row broadcast over the output block and zeroes the rank-8 accumulator, then adds this
  step's chunk of  x · Wᵀ  to the output block and this step's chunk of  x · lora_b  to the accumulator.  At
  0 < k < 7 it only does the two additions, on what the step before left.  At k = 7 it does the two additions
  and then adds (accumulator · 2) · lora_a to the output block.  Each lemma reads the stores of one case back
  as one value of the step's loads: the last store into a buffer decides its contents, and a load that follows
  a store into the same whole buffer reads that store's value.
-/
import proofs.«159519_j36567351558281_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

theorem out_B (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : ¬cond0_0 i) (hc1 : ¬cond0_1 i) (x0 : Vec F S1024x512 .f32) (x1 : Vec F S2048x512 .bf16) (x2 : Vec F S512x8 .bf16) (x3 : Vec F S8x2048 .bf16) (x4 : Vec F S1x2048 .f32) (xo5 : Vec F S1024x2048 .f32) (xs0 : Vec F S1024x8 .f32) :
    out0_B_5 c i arg3 harg3 arg4 harg4 arg5 harg5 arg6 harg6 arg7 harg7 arg8 harg8 arg9 harg9 hc0 hc1 x0 x1 x2 x3 x4 xo5 xs0 = k0_pay4 x0 x1 xo5 := by
  unfold out0_B_5
  rw [View.read_writes_eq_canon _ _ _ (cover0_B_5 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

theorem sout_B (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : ¬cond0_0 i) (hc1 : ¬cond0_1 i) (x0 : Vec F S1024x512 .f32) (x1 : Vec F S2048x512 .bf16) (x2 : Vec F S512x8 .bf16) (x3 : Vec F S8x2048 .bf16) (x4 : Vec F S1x2048 .f32) (xo5 : Vec F S1024x2048 .f32) (xs0 : Vec F S1024x8 .f32) :
    sout0_B_0 c i arg3 harg3 arg4 harg4 arg5 harg5 arg6 harg6 arg7 harg7 arg8 harg8 arg9 harg9 hc0 hc1 x0 x1 x2 x3 x4 xo5 xs0 = k0_pay5 x0 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xo5 xs0)]
  unfold kernelRun0_B
  dsimp only
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

theorem out_A (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : cond0_0 i) (hc1 : ¬cond0_1 i) (x0 : Vec F S1024x512 .f32) (x1 : Vec F S2048x512 .bf16) (x2 : Vec F S512x8 .bf16) (x3 : Vec F S8x2048 .bf16) (x4 : Vec F S1x2048 .f32) :
    out0_A_5 c i arg3 harg3 arg4 harg4 arg5 harg5 arg6 harg6 arg7 harg7 arg8 harg8 arg9 harg9 hc0 hc1 x0 x1 x2 x3 x4 = k0_pay4 x0 x1 (k0_pay1 x4) := by
  unfold out0_A_5
  rw [View.read_writes_eq_canon _ _ _ (cover0_A_5 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x2048) hz, View.readCov_unit_zero (S := S1024x2048) _ hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

theorem sout_A (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : cond0_0 i) (hc1 : ¬cond0_1 i) (x0 : Vec F S1024x512 .f32) (x1 : Vec F S2048x512 .bf16) (x2 : Vec F S512x8 .bf16) (x3 : Vec F S8x2048 .bf16) (x4 : Vec F S1x2048 .f32) :
    sout0_A_0 c i arg3 harg3 arg4 harg4 arg5 harg5 arg6 harg6 arg7 harg7 arg8 harg8 arg9 harg9 hc0 hc1 x0 x1 x2 x3 x4 = k0_pay5 x0 x2 (k0_pay2 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x8) hz, View.readCov_unit_zero (S := S1024x8) _ hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

theorem out_C (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : ¬cond0_0 i) (hc1 : cond0_1 i) (x0 : Vec F S1024x512 .f32) (x1 : Vec F S2048x512 .bf16) (x2 : Vec F S512x8 .bf16) (x3 : Vec F S8x2048 .bf16) (x4 : Vec F S1x2048 .f32) (xo5 : Vec F S1024x2048 .f32) (xs0 : Vec F S1024x8 .f32) :
    out0_C_5 c i arg3 harg3 arg4 harg4 arg5 harg5 arg6 harg6 arg7 harg7 arg8 harg8 arg9 harg9 hc0 hc1 x0 x1 x2 x3 x4 xo5 xs0 = k0_pay6 (k0_pay5 x0 x2 xs0) x3 (k0_pay4 x0 x1 xo5) := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_cons_unit_zero (S := S1024x2048) hz, View.readCov_unit_zero (S := S1024x2048) _ hz,
    View.readCov_unit_zero (S := S1024x8) _ hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

theorem sout_C (c : Dev nD) (i : grid0.Coords) (arg3 : Memref sig .tc .vmem S1024x512 .f32) (harg3 : arg3.IsWhole) (arg4 : Memref sig .tc .vmem S2048x512 .bf16) (harg4 : arg4.IsWhole) (arg5 : Memref sig .tc .vmem S512x8 .bf16) (harg5 : arg5.IsWhole) (arg6 : Memref sig .tc .vmem S8x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x8 .f32) (harg9 : arg9.IsWhole) (hc0 : ¬cond0_0 i) (hc1 : cond0_1 i) (x0 : Vec F S1024x512 .f32) (x1 : Vec F S2048x512 .bf16) (x2 : Vec F S512x8 .bf16) (x3 : Vec F S8x2048 .bf16) (x4 : Vec F S1x2048 .f32) (xo5 : Vec F S1024x2048 .f32) (xs0 : Vec F S1024x8 .f32) :
    sout0_C_0 c i arg3 harg3 arg4 harg4 arg5 harg5 arg6 harg6 arg7 harg7 arg8 harg8 arg9 harg9 hc0 hc1 x0 x1 x2 x3 x4 xo5 xs0 = k0_pay5 x0 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xo5 xs0)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, View.ld_unit_zero (S := S1024x512) hz, View.ld_unit_zero (S := S2048x512) hz, View.ld_unit_zero (S := S512x8) hz, View.ld_unit_zero (S := S8x2048) hz, View.ld_unit_zero (S := S1x2048) hz, View.ld_unit_zero (S := S1024x2048) hz, View.ld_unit_zero (S := S1024x8) hz]

end Cert.KernelIdeal.Pieces

end
-- ==== Proof.Steps.lean ====
/-
  The running contents of the output block and of the rank-8 accumulator, step by step, as the body's
  arithmetic: at a step with k = 0 the bias row plus the first chunk, and the first chunk of the low-rank
  factor over zero; at a later step the previous contents plus this step's chunks; at the step with k = 7
  also the doubled accumulator contracted with lora_a.  Each equation joins the point-by-point recursion with
  the value one case of the body leaves.
-/
import proofs.«159519_j36567351558281_2_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- A step with k = 0. -/
theorem first (c : Dev nD) (t : Fin cfg0.N) (h0 : t.val % 8 = 0) (h1 : ¬t.val % 8 = 7) :
    outsAt0 m c t.val t.isLt
      = (k0_pay4 (iblk m c 0 t) (iblk m c 1 t) (k0_pay1 (iblk m c 4 t)),
         k0_pay5 (iblk m c 0 t) (iblk m c 2 t) (k0_pay2 (F := F))) := by
  have e1 := Pieces.out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  have e2 := Pieces.sout_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)
  rw [outsAt0_A m c t h0 h1, e1, e2]

/-- A step with 0 < k < 7, over what the step before left. -/
theorem middle (c : Dev nD) (n : ℕ) (h : n + 1 < cfg0.N) (h0 : ¬(n + 1) % 8 = 0) (h1 : ¬(n + 1) % 8 = 7) :
    outsAt0 m c (n + 1) h
      = (k0_pay4 (iblk m c 0 ⟨n + 1, h⟩) (iblk m c 1 ⟨n + 1, h⟩) (outsAt0 m c n (Nat.lt_of_succ_lt h)).1,
         k0_pay5 (iblk m c 0 ⟨n + 1, h⟩) (iblk m c 2 ⟨n + 1, h⟩) (outsAt0 m c n (Nat.lt_of_succ_lt h)).2) := by
  have e1 := Pieces.out_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).1 (outsAt0 m c n (Nat.lt_of_succ_lt h)).2
  have e2 := Pieces.sout_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).1 (outsAt0 m c n (Nat.lt_of_succ_lt h)).2
  have e0 := outsAt0_B m c ⟨n + 1, h⟩ h0 h1
  exact e0.trans (by rw [← e1, ← e2]; rfl)

/-- The step with k = 7, over what the step before left. -/
theorem last (c : Dev nD) (n : ℕ) (h : n + 1 < cfg0.N) (h0 : ¬(n + 1) % 8 = 0) (h1 : (n + 1) % 8 = 7) :
    outsAt0 m c (n + 1) h
      = (k0_pay6 (k0_pay5 (iblk m c 0 ⟨n + 1, h⟩) (iblk m c 2 ⟨n + 1, h⟩) (outsAt0 m c n (Nat.lt_of_succ_lt h)).2)
            (iblk m c 3 ⟨n + 1, h⟩)
            (k0_pay4 (iblk m c 0 ⟨n + 1, h⟩) (iblk m c 1 ⟨n + 1, h⟩) (outsAt0 m c n (Nat.lt_of_succ_lt h)).1),
         k0_pay5 (iblk m c 0 ⟨n + 1, h⟩) (iblk m c 2 ⟨n + 1, h⟩) (outsAt0 m c n (Nat.lt_of_succ_lt h)).2) := by
  have e1 := Pieces.out_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).1 (outsAt0 m c n (Nat.lt_of_succ_lt h)).2
  have e2 := Pieces.sout_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (outsAt0 m c n (Nat.lt_of_succ_lt h)).1 (outsAt0 m c n (Nat.lt_of_succ_lt h)).2
  have e0 := outsAt0_C m c ⟨n + 1, h⟩ h0 h1
  exact e0.trans (by rw [← e1, ← e2]; rfl)

end Cert.KernelIdeal.Steps

end
-- ==== Proof.Payloads.lean ====
/-
  The body's arithmetic at one element, over the extended reals.

  Every value the body stores is a whole-block expression of its loads: a broadcast row, a zero block, a
  block plus a matrix product.  Read at an element (p, q) of the block, a product into a zero accumulator
  is the plain sum over the contraction coordinate of the factors' products; a change of float format is
  the identity; a cast of a block to its own shape is the identity.  So at (p, q): the bias store holds the
  bias row at q; the main update adds  ∑ⱼ x[p, j] · w[q, j]  (both operands contracted along their second
  axis, i.e. x · wᵀ); the accumulator update adds  ∑ⱼ x[p, j] · lb[j, r]; and the final update adds
  ∑ᵣ (acc[p, r] · 2) · la[r, q].
-/
import proofs.«159519_j36567351558281_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-- The three contractions of the body. -/
abbrev Dxw := dot_S1024x512_S2048x512_S1024x2048_1_1_0_0_n_n
abbrev Dxl := dot_S1024x512_S512x8_S1024x8_1_0_0_1_n_n
abbrev Dla := dot_S1024x8_S8x2048_S1024x2048_1_0_0_1_n_n

theorem xw_l0 (i : S1024x2048.Idx) (k : Dxw.contr.Idx) : (Dxw.lhsIdx i k 0).val = (i 0).val := by
  unfold DotDims.lhsIdx
  rw [dif_neg (show ¬(0 : Fin S1024x512.rank) ∈ Dxw.lhsBatch by decide), dif_pos (show (0 : Fin S1024x512.rank) ∈ Dxw.lhsNonContracting by decide)]
  rfl
theorem xw_l1 (i : S1024x2048.Idx) (k : Dxw.contr.Idx) : (Dxw.lhsIdx i k 1).val = (k ⟨0, by decide⟩).val :=
  Dxw.lhsIdx_val_of_single rfl i k
theorem xw_r0 (i : S1024x2048.Idx) (k : Dxw.contr.Idx) : (Dxw.rhsIdx i k 0).val = (i 1).val := by
  unfold DotDims.rhsIdx
  rw [dif_neg (show ¬(0 : Fin S2048x512.rank) ∈ Dxw.rhsBatch by decide), dif_pos (show (0 : Fin S2048x512.rank) ∈ Dxw.rhsNonContracting by decide)]
  rfl
theorem xw_r1 (i : S1024x2048.Idx) (k : Dxw.contr.Idx) : (Dxw.rhsIdx i k 1).val = (k ⟨0, by decide⟩).val :=
  Dxw.rhsIdx_val_of_single rfl i k

/-- [1024,512] against [2048,512], both contracted along their second axis, into zero: x · wᵀ at (p, q). -/
theorem mm_xw (l : FVec Ideal S1024x512 .bf16) (r : FVec Ideal S2048x512 .bf16) (p : Fin 1024) (q : Fin 2048) :
    matmul Dxw none l r (constant (F := Ideal) S1024x2048 .f32 0x00000000#32) (ix2 p q)
      = ∑ j : Fin 512, l (ix2 p j) * r (ix2 q j) := by
  simp only [matmul]
  rw [Ideal.matmul_constant_zero_apply, ← Equiv.sum_comp (contrEquiv1 Dxw 512 rfl rfl).symm]
  refine Finset.sum_congr rfl fun k _ => ?_
  have hk := contrEquiv1_symm_val Dxw 512 rfl rfl k
  have el : Dxw.lhsIdx (ix2 p q) ((contrEquiv1 Dxw 512 rfl rfl).symm k) = ix2 p k := funext fun a => Fin.ext (by
    match a with
    | ⟨0, _⟩ => exact xw_l0 _ _
    | ⟨1, _⟩ => exact (xw_l1 _ _).trans hk)
  have er : Dxw.rhsIdx (ix2 p q) ((contrEquiv1 Dxw 512 rfl rfl).symm k) = ix2 q k := funext fun a => Fin.ext (by
    match a with
    | ⟨0, _⟩ => exact xw_r0 _ _
    | ⟨1, _⟩ => exact (xw_r1 _ _).trans hk)
  rw [el, er]

theorem xl_l0 (i : S1024x8.Idx) (k : Dxl.contr.Idx) : (Dxl.lhsIdx i k 0).val = (i 0).val := by
  unfold DotDims.lhsIdx
  rw [dif_neg (show ¬(0 : Fin S1024x512.rank) ∈ Dxl.lhsBatch by decide), dif_pos (show (0 : Fin S1024x512.rank) ∈ Dxl.lhsNonContracting by decide)]
  rfl
theorem xl_l1 (i : S1024x8.Idx) (k : Dxl.contr.Idx) : (Dxl.lhsIdx i k 1).val = (k ⟨0, by decide⟩).val :=
  Dxl.lhsIdx_val_of_single rfl i k
theorem xl_r0 (i : S1024x8.Idx) (k : Dxl.contr.Idx) : (Dxl.rhsIdx i k 0).val = (k ⟨0, by decide⟩).val :=
  Dxl.rhsIdx_val_of_single rfl i k
theorem xl_r1 (i : S1024x8.Idx) (k : Dxl.contr.Idx) : (Dxl.rhsIdx i k 1).val = (i 1).val := by
  unfold DotDims.rhsIdx
  rw [dif_neg (show ¬(1 : Fin S512x8.rank) ∈ Dxl.rhsBatch by decide), dif_pos (show (1 : Fin S512x8.rank) ∈ Dxl.rhsNonContracting by decide)]
  rfl

/-- [1024,512] times [512,8] into zero at (p, r). -/
theorem mm_xl (l : FVec Ideal S1024x512 .bf16) (r : FVec Ideal S512x8 .bf16) (p : Fin 1024) (c : Fin 8) :
    matmul Dxl none l r (constant (F := Ideal) S1024x8 .f32 0x00000000#32) (ix2 p c)
      = ∑ j : Fin 512, l (ix2 p j) * r (ix2 j c) := by
  simp only [matmul]
  rw [Ideal.matmul_constant_zero_apply, ← Equiv.sum_comp (contrEquiv1 Dxl 512 rfl rfl).symm]
  refine Finset.sum_congr rfl fun k _ => ?_
  have hk := contrEquiv1_symm_val Dxl 512 rfl rfl k
  have el : Dxl.lhsIdx (ix2 p c) ((contrEquiv1 Dxl 512 rfl rfl).symm k) = ix2 p k := funext fun a => Fin.ext (by
    match a with
    | ⟨0, _⟩ => exact xl_l0 _ _
    | ⟨1, _⟩ => exact (xl_l1 _ _).trans hk)
  have er : Dxl.rhsIdx (ix2 p c) ((contrEquiv1 Dxl 512 rfl rfl).symm k) = ix2 k c := funext fun a => Fin.ext (by
    match a with
    | ⟨0, _⟩ => exact (xl_r0 _ _).trans hk
    | ⟨1, _⟩ => exact xl_r1 _ _)
  rw [el, er]

theorem la_l0 (i : S1024x2048.Idx) (k : Dla.contr.Idx) : (Dla.lhsIdx i k 0).val = (i 0).val := by
  unfold DotDims.lhsIdx
  rw [dif_neg (show ¬(0 : Fin S1024x8.rank) ∈ Dla.lhsBatch by decide), dif_pos (show (0 : Fin S1024x8.rank) ∈ Dla.lhsNonContracting by decide)]
  rfl
theorem la_l1 (i : S1024x2048.Idx) (k : Dla.contr.Idx) : (Dla.lhsIdx i k 1).val = (k ⟨0, by decide⟩).val :=
  Dla.lhsIdx_val_of_single rfl i k
theorem la_r0 (i : S1024x2048.Idx) (k : Dla.contr.Idx) : (Dla.rhsIdx i k 0).val = (k ⟨0, by decide⟩).val :=
  Dla.rhsIdx_val_of_single rfl i k
theorem la_r1 (i : S1024x2048.Idx) (k : Dla.contr.Idx) : (Dla.rhsIdx i k 1).val = (i 1).val := by
  unfold DotDims.rhsIdx
  rw [dif_neg (show ¬(1 : Fin S8x2048.rank) ∈ Dla.rhsBatch by decide), dif_pos (show (1 : Fin S8x2048.rank) ∈ Dla.rhsNonContracting by decide)]
  rfl

/-- [1024,8] times [8,2048] into zero at (p, q). -/
theorem mm_la (l : FVec Ideal S1024x8 .bf16) (r : FVec Ideal S8x2048 .bf16) (p : Fin 1024) (q : Fin 2048) :
    matmul Dla none l r (constant (F := Ideal) S1024x2048 .f32 0x00000000#32) (ix2 p q)
      = ∑ c : Fin 8, l (ix2 p c) * r (ix2 c q) := by
  simp only [matmul]
  rw [Ideal.matmul_constant_zero_apply, ← Equiv.sum_comp (contrEquiv1 Dla 8 rfl rfl).symm]
  refine Finset.sum_congr rfl fun k _ => ?_
  have hk := contrEquiv1_symm_val Dla 8 rfl rfl k
  have el : Dla.lhsIdx (ix2 p q) ((contrEquiv1 Dla 8 rfl rfl).symm k) = ix2 p k := funext fun a => Fin.ext (by
    match a with
    | ⟨0, _⟩ => exact la_l0 _ _
    | ⟨1, _⟩ => exact (la_l1 _ _).trans hk)
  have er : Dla.rhsIdx (ix2 p q) ((contrEquiv1 Dla 8 rfl rfl).symm k) = ix2 k q := funext fun a => Fin.ext (by
    match a with
    | ⟨0, _⟩ => exact (la_r0 _ _).trans hk
    | ⟨1, _⟩ => exact la_r1 _ _)
  rw [el, er]

/-- The bias store: the one row, at every row of the block. -/
theorem pay1_apply (x4 : Vec Ideal S1x2048 .f32) (p : Fin 1024) (q : Fin 2048) :
    k0_pay1 x4 (ix2 p q) = x4 (ix2 (0 : Fin 1) q) := by
  unfold k0_pay1
  simp only [shapeCast_self]
  exact broadcastTo_1b_ab_apply x4 _ p q

/-- The accumulator's reset: zero. -/
theorem pay2_apply (p : Fin 1024) (c : Fin 8) : k0_pay2 (F := Ideal) (ix2 p c) = 0 := by
  unfold k0_pay2
  simp only [shapeCast_self]
  exact Ideal.ofBits_zero_f32

/-- The main update at (p, q): what was there plus this step's chunk of x · wᵀ. -/
theorem pay4_apply (x0 : Vec Ideal S1024x512 .f32) (x1 : Vec Ideal S2048x512 .bf16) (xo : Vec Ideal S1024x2048 .f32)
    (p : Fin 1024) (q : Fin 2048) :
    k0_pay4 x0 x1 xo (ix2 p q) = xo (ix2 p q) + ∑ j : Fin 512, x0 (ix2 p j) * x1 (ix2 q j) := by
  unfold k0_pay4 k0_pay3
  simp only [shapeCast_self]
  refine (addf_apply _ _ _).trans ?_
  exact congrArg (xo (ix2 p q) + ·) ((mm_xw _ _ p q).trans (Finset.sum_congr rfl fun j _ => rfl))

/-- The accumulator's update at (p, r): what was there plus this step's chunk of x · lora_b. -/
theorem pay5_apply (x0 : Vec Ideal S1024x512 .f32) (x2 : Vec Ideal S512x8 .bf16) (xs : Vec Ideal S1024x8 .f32)
    (p : Fin 1024) (c : Fin 8) :
    k0_pay5 x0 x2 xs (ix2 p c) = xs (ix2 p c) + ∑ j : Fin 512, x0 (ix2 p j) * x2 (ix2 j c) := by
  unfold k0_pay5 k0_pay3
  simp only [shapeCast_self]
  refine (addf_apply _ _ _).trans ?_
  exact congrArg (xs (ix2 p c) + ·) ((mm_xl _ _ p c).trans (Finset.sum_congr rfl fun j _ => rfl))

/-- The last update at (p, q): what was there plus the doubled accumulator row contracted with lora_a. -/
theorem pay6_apply (a : Vec Ideal S1024x8 .f32) (x3 : Vec Ideal S8x2048 .bf16) (xo : Vec Ideal S1024x2048 .f32)
    (p : Fin 1024) (q : Fin 2048) :
    k0_pay6 a x3 xo (ix2 p q)
      = xo (ix2 p q) + ∑ c : Fin 8, (a (ix2 p c) * Ideal.ofBits .f32 0x40000000#32) * x3 (ix2 c q) := by
  unfold k0_pay6
  simp only [shapeCast_self]
  refine (addf_apply _ _ _).trans ?_
  exact congrArg (xo (ix2 p q) + ·) ((mm_la _ _ p q).trans (Finset.sum_congr rfl fun c _ => rfl))

end Cert.KernelIdeal.Pay

end
-- ==== Proof.Spec.lean ====
/-
  The arithmetic shared by the two programs, over the extended reals, with no program in sight.

  A row of the product  x · Wᵀ  is a sum over 4096 contraction positions.  The kernel forms it in eight
  chunks of 512 positions, one chunk per step along the innermost grid axis, each chunk added to a running
  value that starts from the bias; the low-rank factor  x · lora_b  is accumulated the same way from zero,
  and at the last step it is scaled by two, multiplied into lora_a and added on.  The reference forms the
  two sums whole, adds the bias after the first, and scales the low-rank product by two at the end.

  Here: a sum over 4096 positions is the sum of its eight chunks (`upto_seven`); multiplying a finite sum
  of extended reals by a non-negative real constant distributes (`sum_mul_const`) — this is the one law that
  is not plain commutativity and associativity, and it holds on the extended reals without any finiteness
  of the summands because the constant is a non-negative real; and the two arrangements agree (`join`).
  Arrays are read through natural-number coordinates (zero outside the extents), so that a position such
  as  512·k + j  needs no proof of being in range to be written down.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The word `0x40000000` is the real number two. -/
theorem ofBits_two : Ideal.ofBits .f32 0x40000000#32 = ((2 : ℝ) : EReal) := by
  simp [Ideal.ofBits, Ideal.ieee, -EReal.coe_mul]; norm_num

/-- A matrix read at natural-number coordinates: zero outside its extents. -/
def nat2 {a b : ℕ} (A : (⟨2, ![a, b]⟩ : Shape).Idx → EReal) (i j : ℕ) : EReal :=
  if h : i < a ∧ j < b then A (ix2 ⟨i, h.1⟩ ⟨j, h.2⟩) else 0

theorem nat2_val {a b : ℕ} (A : (⟨2, ![a, b]⟩ : Shape).Idx → EReal) (i : Fin a) (j : Fin b) :
    nat2 A i.val j.val = A (ix2 i j) := dif_pos ⟨i.isLt, j.isLt⟩

theorem nat2_of_lt {a b : ℕ} (A : (⟨2, ![a, b]⟩ : Shape).Idx → EReal) (i j : ℕ) (hi : i < a) (hj : j < b) :
    nat2 A i j = A (ix2 ⟨i, hi⟩ ⟨j, hj⟩) := dif_pos ⟨hi, hj⟩

/-- A vector read at a natural-number coordinate: zero outside its extent. -/
def nat1 {a : ℕ} (A : (⟨1, ![a]⟩ : Shape).Idx → EReal) (i : ℕ) : EReal :=
  if h : i < a then A (ix1 ⟨i, h⟩) else 0

theorem nat1_of_lt {a : ℕ} (A : (⟨1, ![a]⟩ : Shape).Idx → EReal) (i : ℕ) (hi : i < a) :
    nat1 A i = A (ix1 ⟨i, hi⟩) := dif_pos hi

/-- Chunk `k` of a sum over contraction positions: the 512 positions from `512·k`. -/
def chunk (f : ℕ → EReal) (k : ℕ) : EReal := ∑ j : Fin 512, f (512 * k + j.val)

/-- The chunks `0 … k` added up. -/
def upto (f : ℕ → EReal) (k : ℕ) : EReal := ∑ k' ∈ Finset.range (k + 1), chunk f k'

theorem upto_zero (f : ℕ → EReal) : upto f 0 = chunk f 0 := by
  unfold upto; rw [Finset.sum_range_one]

theorem upto_succ (f : ℕ → EReal) (k : ℕ) : upto f (k + 1) = upto f k + chunk f (k + 1) :=
  Finset.sum_range_succ _ _

/-- Eight chunks of 512 are all 4096 positions. -/
theorem upto_seven (f : ℕ → EReal) : upto f 7 = ∑ d : Fin 4096, f d.val := by
  have h1 : ∑ d : Fin 4096, f d.val = ∑ p : Fin 8 × Fin 512, f (finProdFinEquiv p).val :=
    (Equiv.sum_comp (finProdFinEquiv (m := 8) (n := 512)) (fun d : Fin 4096 => f d.val)).symm
  rw [h1, Fintype.sum_prod_type, upto, Finset.sum_range]
  refine Finset.sum_congr rfl fun k _ => Finset.sum_congr rfl fun j _ => ?_
  refine congrArg f ?_
  show 512 * k.val + j.val = j.val + 512 * k.val
  omega

/-- A finite sum of extended reals times a non-negative real constant is the sum of the products. -/
theorem sum_mul_const {ι : Type} (s : Finset ι) (g : ι → EReal) (c : EReal) (hc : 0 ≤ c) (hc' : c ≠ ⊤) :
    (∑ i ∈ s, g i) * c = ∑ i ∈ s, g i * c := by
  classical
  induction s using Finset.induction_on with
  | empty => simp
  | insert a s ha ih =>
    rw [Finset.sum_insert ha, Finset.sum_insert ha, EReal.right_distrib_of_nonneg_of_ne_top hc hc', ih]

/-- The products  x[M, d] · W[O, d]  along the contraction. -/
def xw (X W : ℕ → ℕ → EReal) (M O : ℕ) : ℕ → EReal := fun d => X M d * W O d

/-- The products  x[M, d] · lora_b[d, r]  along the contraction. -/
def xl (X LB : ℕ → ℕ → EReal) (M r : ℕ) : ℕ → EReal := fun d => X M d * LB d r

/-- The low-rank term as the kernel forms it: each accumulated factor scaled by `two`, then into lora_a. -/
def lora (X LB LA : ℕ → ℕ → EReal) (two : EReal) (M O : ℕ) : EReal :=
  ∑ r : Fin 8, (upto (xl X LB M r.val) 7 * two) * LA r.val O

/-- THE LAW.  The kernel's arrangement (bias first, eight chunks, the scaled low-rank factor contracted
    with lora_a) and the reference's (whole sums, bias after, the low-rank product scaled last) are one
    extended real. -/
theorem join (X W LA LB : ℕ → ℕ → EReal) (B : ℕ → EReal) (two : EReal) (h2 : two = ((2 : ℝ) : EReal)) (M O : ℕ) :
    (B O + upto (xw X W M O) 7) + lora X LB LA two M O
      = (∑ d : Fin 4096, X M d.val * W O d.val + B O)
        + (∑ r : Fin 8, (∑ d : Fin 4096, X M d.val * LB d.val r.val) * LA r.val O) * two := by
  have hnn : (0 : EReal) ≤ two := by rw [h2]; exact_mod_cast (by norm_num : (0 : ℝ) ≤ 2)
  have hnt : two ≠ ⊤ := by rw [h2]; exact EReal.coe_ne_top _
  unfold lora
  simp only [upto_seven, xw, xl]
  rw [add_comm (B O), sum_mul_const _ _ _ hnn hnt]
  refine congrArg _ (Finset.sum_congr rfl fun r _ => ?_)
  rw [mul_right_comm]

end Cert.Spec

end
-- ==== Proof.Blocks.lean ====
/-
  Where each block of the kernel's operands sits in the arrays.

  The grid is 16 × 2 × 8; point t has row-tile  t / 16, column-tile  (t / 8) % 2  and contraction step
  t % 8.  At point t the x block is rows  1024·(t/16) + p  and contraction positions  512·(t%8) + j  of the
  [16384, 4096] array; the W block is rows  2048·((t/8)%2) + q  at the same contraction positions; the
  lora_b block is those contraction positions, all eight columns; the lora_a block is all eight rows at
  columns  2048·((t/8)%2) + q; the bias block is the one row at those columns.  An element of a block is at
  block index × block size + the coordinate inside the block, along each axis.

  The arrays the region finds were written by the host lines before it: W, lora_b and lora_a changed to bf16
  (no change of value over the extended reals), the bias cast from [4096] to [1, 4096], x cast from
  [8, 2048, 4096] to [16384, 4096] (row 2048·b + s is (b, s)).
-/
import proofs.«159519_j36567351558281_2_alg».proof.Proof.Gen.KernelIdeal.Frame
import proofs.«159519_j36567351558281_2_alg».proof.Proof.Spec
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.Spec

variable (m : (ℓ : Loc nD τ sig) → Buf (Elt Ideal) ℓ)

/-- The block indices of the five operand windows and of the result window at point `t`. -/
theorem idx0 : ∀ t : Fin cfg0.N, win0_0.index t (0 : Fin 2) = t.val / 16 ∧ win0_0.index t (1 : Fin 2) = t.val % 8 :=
  (by decide +kernel : ∀ t : Fin grid0.N, win0_0.index t (0 : Fin 2) = t.val / 16 ∧ win0_0.index t (1 : Fin 2) = t.val % 8)
theorem idx1 : ∀ t : Fin cfg0.N, win0_1.index t (0 : Fin 2) = t.val / 8 % 2 ∧ win0_1.index t (1 : Fin 2) = t.val % 8 :=
  (by decide +kernel : ∀ t : Fin grid0.N, win0_1.index t (0 : Fin 2) = t.val / 8 % 2 ∧ win0_1.index t (1 : Fin 2) = t.val % 8)
theorem idx2 : ∀ t : Fin cfg0.N, win0_2.index t (0 : Fin 2) = t.val % 8 ∧ win0_2.index t (1 : Fin 2) = 0 :=
  (by decide +kernel : ∀ t : Fin grid0.N, win0_2.index t (0 : Fin 2) = t.val % 8 ∧ win0_2.index t (1 : Fin 2) = 0)
theorem idx3 : ∀ t : Fin cfg0.N, win0_3.index t (0 : Fin 2) = 0 ∧ win0_3.index t (1 : Fin 2) = t.val / 8 % 2 :=
  (by decide +kernel : ∀ t : Fin grid0.N, win0_3.index t (0 : Fin 2) = 0 ∧ win0_3.index t (1 : Fin 2) = t.val / 8 % 2)
theorem idx4 : ∀ t : Fin cfg0.N, win0_4.index t (0 : Fin 2) = 0 ∧ win0_4.index t (1 : Fin 2) = t.val / 8 % 2 :=
  (by decide +kernel : ∀ t : Fin grid0.N, win0_4.index t (0 : Fin 2) = 0 ∧ win0_4.index t (1 : Fin 2) = t.val / 8 % 2)
theorem idx5 : ∀ t : Fin cfg0.N, win0_5.index t (0 : Fin 2) = t.val / 16 ∧ win0_5.index t (1 : Fin 2) = t.val / 8 % 2 :=
  (by decide +kernel : ∀ t : Fin grid0.N, win0_5.index t (0 : Fin 2) = t.val / 16 ∧ win0_5.index t (1 : Fin 2) = t.val / 8 % 2)

/-- The x block at point `t`. -/
theorem iblk0_apply (c : Dev nD) (t : Fin cfg0.N) (p : Fin 1024) (j : Fin 512) :
    (iblk m c 0 t : Vec Ideal S1024x512 .f32) (ix2 p j)
      = nat2 (a := 16384) (b := 4096) (V m c main_v4) (1024 * (t.val / 16) + p.val) (512 * (t.val % 8) + j.val) := by
  have hN : t.val < 256 := lt_of_lt_of_eq t.isLt (show cfg0.N = 256 from N_0)
  rw [nat2_of_lt _ _ _ (by omega) (by omega)]
  unfold iblk
  rw [View.read_apply]
  show V m c main_v4 _ = V m c main_v4 _
  refine congrArg (V m c main_v4) (funext fun a => Fin.ext ?_)
  match a with
  | ⟨0, _⟩ => show win0_0.index t 0 * 1024 + 1 * p.val = 1024 * (t.val / 16) + p.val; rw [(idx0 t).1]; omega
  | ⟨1, _⟩ => show win0_0.index t 1 * 512 + 1 * j.val = 512 * (t.val % 8) + j.val; rw [(idx0 t).2]; omega

/-- The W block at point `t`. -/
theorem iblk1_apply (c : Dev nD) (t : Fin cfg0.N) (q : Fin 2048) (j : Fin 512) :
    (iblk m c 1 t : Vec Ideal S2048x512 .bf16) (ix2 q j)
      = nat2 (a := 4096) (b := 4096) (V m c main_v0) (2048 * (t.val / 8 % 2) + q.val) (512 * (t.val % 8) + j.val) := by
  have hN : t.val < 256 := lt_of_lt_of_eq t.isLt (show cfg0.N = 256 from N_0)
  rw [nat2_of_lt _ _ _ (by omega) (by omega)]
  unfold iblk
  rw [View.read_apply]
  show V m c main_v0 _ = V m c main_v0 _
  refine congrArg (V m c main_v0) (funext fun a => Fin.ext ?_)
  match a with
  | ⟨0, _⟩ => show win0_1.index t 0 * 2048 + 1 * q.val = 2048 * (t.val / 8 % 2) + q.val; rw [(idx1 t).1]; omega
  | ⟨1, _⟩ => show win0_1.index t 1 * 512 + 1 * j.val = 512 * (t.val % 8) + j.val; rw [(idx1 t).2]; omega

/-- The lora_b block at point `t`. -/
theorem iblk2_apply (c : Dev nD) (t : Fin cfg0.N) (j : Fin 512) (r : Fin 8) :
    (iblk m c 2 t : Vec Ideal S512x8 .bf16) (ix2 j r)
      = nat2 (a := 4096) (b := 8) (V m c main_v1) (512 * (t.val % 8) + j.val) r.val := by
  have hN : t.val < 256 := lt_of_lt_of_eq t.isLt (show cfg0.N = 256 from N_0)
  rw [nat2_of_lt _ _ _ (by omega) r.isLt]
  unfold iblk
  rw [View.read_apply]
  show V m c main_v1 _ = V m c main_v1 _
  refine congrArg (V m c main_v1) (funext fun a => Fin.ext ?_)
  match a with
  | ⟨0, _⟩ => show win0_2.index t 0 * 512 + 1 * j.val = 512 * (t.val % 8) + j.val; rw [(idx2 t).1]; omega
  | ⟨1, _⟩ => show win0_2.index t 1 * 8 + 1 * r.val = r.val; rw [(idx2 t).2]; omega

/-- The lora_a block at point `t`. -/
theorem iblk3_apply (c : Dev nD) (t : Fin cfg0.N) (r : Fin 8) (q : Fin 2048) :
    (iblk m c 3 t : Vec Ideal S8x2048 .bf16) (ix2 r q)
      = nat2 (a := 8) (b := 4096) (V m c main_v2) r.val (2048 * (t.val / 8 % 2) + q.val) := by
  have hN : t.val < 256 := lt_of_lt_of_eq t.isLt (show cfg0.N = 256 from N_0)
  rw [nat2_of_lt _ _ _ r.isLt (by omega)]
  unfold iblk
  rw [View.read_apply]
  show V m c main_v2 _ = V m c main_v2 _
  refine congrArg (V m c main_v2) (funext fun a => Fin.ext ?_)
  match a with
  | ⟨0, _⟩ => show win0_3.index t 0 * 8 + 1 * r.val = r.val; rw [(idx3 t).1]; omega
  | ⟨1, _⟩ => show win0_3.index t 1 * 2048 + 1 * q.val = 2048 * (t.val / 8 % 2) + q.val; rw [(idx3 t).2]; omega

/-- The bias block at point `t`. -/
theorem iblk4_apply (c : Dev nD) (t : Fin cfg0.N) (q : Fin 2048) :
    (iblk m c 4 t : Vec Ideal S1x2048 .f32) (ix2 (0 : Fin 1) q)
      = nat2 (a := 1) (b := 4096) (V m c main_v3) 0 (2048 * (t.val / 8 % 2) + q.val) := by
  have hN : t.val < 256 := lt_of_lt_of_eq t.isLt (show cfg0.N = 256 from N_0)
  rw [nat2_of_lt _ _ _ Nat.one_pos (by omega)]
  unfold iblk
  rw [View.read_apply]
  show V m c main_v3 _ = V m c main_v3 _
  refine congrArg (V m c main_v3) (funext fun a => Fin.ext ?_)
  match a with
  | ⟨0, _⟩ => show win0_4.index t 0 * 1 + 1 * 0 = 0; rw [(idx4 t).1]
  | ⟨1, _⟩ => show win0_4.index t 1 * 2048 + 1 * q.val = 2048 * (t.val / 8 % 2) + q.val; rw [(idx4 t).2]; omega

end Cert.KernelIdeal.Blocks

end
-- ==== Proof.Accum.lean ====
/-
  What the output block and the accumulator hold after every grid point, in closed form.

  Points are visited in order; within a group of eight consecutive points the row tile and the column tile
  are fixed and the contraction step k = n % 8 runs 0 … 7.  After point n the output block holds, at (p, q),
  the bias at the column plus the chunks 0 … k of the row of x against the row of W — and, once k = 7, the
  low-rank term as well; the accumulator holds, at (p, r), the chunks 0 … k of the row of x against column r of
  lora_b.  By induction on the point: a point with k = 0 starts afresh; any other point continues from the
  point before it, which lies in the same group (same row tile, same column tile, k one less).
-/
import proofs.«159519_j36567351558281_2_alg».proof.Proof.Steps
import proofs.«159519_j36567351558281_2_alg».proof.Proof.Payloads
import proofs.«159519_j36567351558281_2_alg».proof.Proof.Blocks
import proofs.«159519_j36567351558281_2_alg».proof.Proof.Spec

noncomputable section

namespace Cert.KernelIdeal.Accum

open Cert.KernelIdeal Cert.KernelIdeal.Gen Idealize.ShloMosaic Idealize.ShloMosaic.TcCoe Idealize.SL.Sem
open Idealize.ShloMosaic.ValueIdx Cert.Spec

/-! ## Three steps of a running sum, as plain arithmetic -/

theorem step_first (a b s L : EReal) (f : ℕ → EReal) (k : ℕ) (hk : k = 0) (ha : a = b) (hs : s = chunk f k) :
    a + s = (b + upto f k) + (if k = 7 then L else 0) := by
  subst hk ha hs; rw [if_neg (by decide), add_zero, upto_zero]

theorem step_mid (prev b s L L' : EReal) (f : ℕ → EReal) (k k' : ℕ) (hk : k' = k + 1) (h7 : ¬k' = 7) (hk7 : ¬k = 7)
    (hp : prev = (b + upto f k) + (if k = 7 then L else 0)) (hs : s = chunk f k') :
    prev + s = (b + upto f k') + (if k' = 7 then L' else 0) := by
  subst hk hp hs; rw [if_neg hk7, if_neg h7, add_zero, add_zero, upto_succ, add_assoc]

theorem step_last (prev b s L0 T L : EReal) (f : ℕ → EReal) (k k' : ℕ) (hk : k' = k + 1) (h7 : k' = 7)
    (hp : prev = (b + upto f k) + (if k = 7 then L0 else 0)) (hs : s = chunk f k') (hT : T = L) :
    (prev + s) + T = (b + upto f k') + (if k' = 7 then L else 0) := by
  subst hk hp hs hT; rw [if_pos h7, if_neg (by omega), add_zero, upto_succ, ← add_assoc]

theorem acc_step (prev s : EReal) (g : ℕ → EReal) (k k' : ℕ) (hk : k' = k + 1) (hp : prev = upto g k)
    (hs : s = chunk g k') : prev + s = upto g k' := by
  subst hk hp hs; exact (upto_succ g k).symm

/-! ## The arrays the region finds, and the tile of a point -/

variable (m : (ℓ : Loc nD τ sig) → Buf (Elt Ideal) ℓ)

/-- x as [16384, 4096], W, lora_b, lora_a, and the bias row, at natural-number coordinates. -/
def X (c : Dev nD) : ℕ → ℕ → EReal := nat2 (a := 16384) (b := 4096) (V m c main_v4)
def Wt (c : Dev nD) : ℕ → ℕ → EReal := nat2 (a := 4096) (b := 4096) (V m c main_v0)
def LB (c : Dev nD) : ℕ → ℕ → EReal := nat2 (a := 4096) (b := 8) (V m c main_v1)
def LA (c : Dev nD) : ℕ → ℕ → EReal := nat2 (a := 8) (b := 4096) (V m c main_v2)
def Bs (c : Dev nD) : ℕ → EReal := fun o => nat2 (a := 1) (b := 4096) (V m c main_v3) 0 o

/-- The scale, as the body spells it. -/
abbrev two : EReal := Ideal.ofBits .f32 0x40000000#32

/-- Row `p` of point `n`'s row tile, column `q` of its column tile. -/
abbrev row (n p : ℕ) : ℕ := 1024 * (n / 16) + p
abbrev col (n q : ℕ) : ℕ := 2048 * (n / 8 % 2) + q

/-- A sum over 512 products whose factors are two arrays read along one chunk is that chunk. -/
theorem sum_chunk (g h : Fin 512 → EReal) (a b : ℕ → EReal) (k : ℕ)
    (h0 : ∀ j : Fin 512, g j = a (512 * k + j.val)) (h1 : ∀ j : Fin 512, h j = b (512 * k + j.val)) :
    ∑ j : Fin 512, g j * h j = chunk (fun d => a d * b d) k :=
  Finset.sum_congr rfl fun j _ => by rw [h0 j, h1 j]

/-- The main update at point `t`: what was there plus this point's chunk of the row of x against the row of W. -/
theorem pay4_at (c : Dev nD) (t : Fin cfg0.N) (xo : Vec Ideal S1024x2048 .f32) (p : Fin 1024) (q : Fin 2048) :
    k0_pay4 (iblk m c 0 t) (iblk m c 1 t) xo (ix2 p q)
      = xo (ix2 p q) + chunk (xw (X m c) (Wt m c) (row t.val p.val) (col t.val q.val)) (t.val % 8) :=
  (Pay.pay4_apply (iblk m c 0 t) (iblk m c 1 t) xo p q).trans (congrArg (xo (ix2 p q) + ·)
    (sum_chunk _ _ (X m c (row t.val p.val)) (Wt m c (col t.val q.val)) (t.val % 8)
      (fun j => Blocks.iblk0_apply m c t p j) (fun j => Blocks.iblk1_apply m c t q j)))

/-- The accumulator's update at point `t`: what was there plus this point's chunk of the row of x against
    column `r` of lora_b. -/
theorem pay5_at (c : Dev nD) (t : Fin cfg0.N) (xs : Vec Ideal S1024x8 .f32) (p : Fin 1024) (r : Fin 8) :
    k0_pay5 (iblk m c 0 t) (iblk m c 2 t) xs (ix2 p r)
      = xs (ix2 p r) + chunk (xl (X m c) (LB m c) (row t.val p.val) r.val) (t.val % 8) :=
  (Pay.pay5_apply (iblk m c 0 t) (iblk m c 2 t) xs p r).trans (congrArg (xs (ix2 p r) + ·)
    (sum_chunk _ _ (X m c (row t.val p.val)) (fun d => LB m c d r.val) (t.val % 8)
      (fun j => Blocks.iblk0_apply m c t p j) (fun j => Blocks.iblk2_apply m c t j r)))

/-! ## The closed form, by induction on the point -/

/-- The contents after point `n`. -/
def OutOK (c : Dev nD) (n : ℕ) (h : n < cfg0.N) : Prop :=
  (∀ (p : Fin 1024) (q : Fin 2048), (outsAt0 m c n h).1 (ix2 p q)
      = (Bs m c (col n q.val) + upto (xw (X m c) (Wt m c) (row n p.val) (col n q.val)) (n % 8))
        + (if n % 8 = 7 then lora (X m c) (LB m c) (LA m c) two (row n p.val) (col n q.val) else 0))
  ∧ (∀ (p : Fin 1024) (r : Fin 8), (outsAt0 m c n h).2 (ix2 p r)
      = upto (xl (X m c) (LB m c) (row n p.val) r.val) (n % 8))

theorem ok_first (c : Dev nD) (t : Fin cfg0.N) (h0 : t.val % 8 = 0) : OutOK m c t.val t.isLt := by
  have h1 : ¬t.val % 8 = 7 := by omega
  unfold OutOK
  rw [Steps.first m c t h0 h1]
  refine ⟨fun p q => ?_, fun p r => ?_⟩
  · refine (pay4_at m c t (k0_pay1 (iblk m c 4 t)) p q).trans ?_
    exact step_first _ _ _ _ _ _ h0 ((Pay.pay1_apply (iblk m c 4 t) p q).trans (Blocks.iblk4_apply m c t q)) rfl
  · refine (pay5_at m c t (k0_pay2 (F := Ideal)) p r).trans ?_
    rw [Pay.pay2_apply p r, zero_add, h0, upto_zero]

theorem ok_middle (c : Dev nD) (n : ℕ) (h : n + 1 < cfg0.N) (h0 : ¬(n + 1) % 8 = 0) (h1 : ¬(n + 1) % 8 = 7)
    (ih : OutOK m c n (Nat.lt_of_succ_lt h)) : OutOK m c (n + 1) h := by
  unfold OutOK at ih ⊢
  rw [Steps.middle m c n h h0 h1]
  have e16 : n / 16 = (n + 1) / 16 := by omega
  have e8 : n / 8 % 2 = (n + 1) / 8 % 2 := by omega
  have hr : ∀ p : ℕ, row n p = row (n + 1) p := fun p => by show 1024 * (n / 16) + p = 1024 * ((n + 1) / 16) + p; rw [e16]
  have hc : ∀ q : ℕ, col n q = col (n + 1) q := fun q => by show 2048 * (n / 8 % 2) + q = 2048 * ((n + 1) / 8 % 2) + q; rw [e8]
  refine ⟨fun p q => ?_, fun p r => ?_⟩
  · refine (pay4_at m c ⟨n + 1, h⟩ (outsAt0 m c n (Nat.lt_of_succ_lt h)).1 p q).trans ?_
    have ihp := ih.1 p q
    rw [hr, hc] at ihp
    exact step_mid _ _ _ _ _ _ (n % 8) ((n + 1) % 8) (by omega) h1 (by omega) ihp rfl
  · refine (pay5_at m c ⟨n + 1, h⟩ (outsAt0 m c n (Nat.lt_of_succ_lt h)).2 p r).trans ?_
    have ihr := ih.2 p r
    rw [hr] at ihr
    exact acc_step _ _ _ (n % 8) ((n + 1) % 8) (by omega) ihr rfl

theorem ok_last (c : Dev nD) (n : ℕ) (h : n + 1 < cfg0.N) (h0 : ¬(n + 1) % 8 = 0) (h1 : (n + 1) % 8 = 7)
    (ih : OutOK m c n (Nat.lt_of_succ_lt h)) : OutOK m c (n + 1) h := by
  unfold OutOK at ih ⊢
  rw [Steps.last m c n h h0 h1]
  have e16 : n / 16 = (n + 1) / 16 := by omega
  have e8 : n / 8 % 2 = (n + 1) / 8 % 2 := by omega
  have hr : ∀ p : ℕ, row n p = row (n + 1) p := fun p => by show 1024 * (n / 16) + p = 1024 * ((n + 1) / 16) + p; rw [e16]
  have hc : ∀ q : ℕ, col n q = col (n + 1) q := fun q => by show 2048 * (n / 8 % 2) + q = 2048 * ((n + 1) / 8 % 2) + q; rw [e8]
  have acc : ∀ (p : Fin 1024) (r : Fin 8),
      k0_pay5 (iblk m c 0 ⟨n + 1, h⟩) (iblk m c 2 ⟨n + 1, h⟩) (outsAt0 m c n (Nat.lt_of_succ_lt h)).2 (ix2 p r)
        = upto (xl (X m c) (LB m c) (row (n + 1) p.val) r.val) ((n + 1) % 8) := fun p r => by
    refine (pay5_at m c ⟨n + 1, h⟩ (outsAt0 m c n (Nat.lt_of_succ_lt h)).2 p r).trans ?_
    have ihr := ih.2 p r
    rw [hr] at ihr
    exact acc_step _ _ _ (n % 8) ((n + 1) % 8) (by omega) ihr rfl
  refine ⟨fun p q => ?_, acc⟩
  have hT : ∑ r : Fin 8, (k0_pay5 (iblk m c 0 ⟨n + 1, h⟩) (iblk m c 2 ⟨n + 1, h⟩) (outsAt0 m c n (Nat.lt_of_succ_lt h)).2 (ix2 p r)
        * Ideal.ofBits .f32 0x40000000#32) * (iblk m c 3 ⟨n + 1, h⟩ : Vec Ideal S8x2048 .bf16) (ix2 r q)
      = lora (X m c) (LB m c) (LA m c) two (row (n + 1) p.val) (col (n + 1) q.val) := by
    unfold lora
    refine Finset.sum_congr rfl fun r _ => ?_
    rw [acc p r, h1]
    exact congrArg _ (Blocks.iblk3_apply m c ⟨n + 1, h⟩ r q)
  refine (Pay.pay6_apply (k0_pay5 (iblk m c 0 ⟨n + 1, h⟩) (iblk m c 2 ⟨n + 1, h⟩) (outsAt0 m c n (Nat.lt_of_succ_lt h)).2)
    (iblk m c 3 ⟨n + 1, h⟩) (k0_pay4 (iblk m c 0 ⟨n + 1, h⟩) (iblk m c 1 ⟨n + 1, h⟩) (outsAt0 m c n (Nat.lt_of_succ_lt h)).1) p q).trans ?_
  refine (congrArg₂ (· + ·)
    (pay4_at m c ⟨n + 1, h⟩ (outsAt0 m c n (Nat.lt_of_succ_lt h)).1 p q) hT).trans ?_
  have ihp := ih.1 p q
  rw [hr, hc] at ihp
  exact step_last _ _ _ _ _ _ _ (n % 8) ((n + 1) % 8) (by omega) h1 ihp rfl rfl

/-- After every point. -/
theorem ok (c : Dev nD) : ∀ (n : ℕ) (h : n < cfg0.N), OutOK m c n h
  | 0, h => ok_first m c ⟨0, h⟩ rfl
  | n + 1, h => by
    by_cases h0 : (n + 1) % 8 = 0
    · exact ok_first m c ⟨n + 1, h⟩ h0
    · by_cases h1 : (n + 1) % 8 = 7
      · exact ok_last m c n h h0 h1 (ok c n _)
      · exact ok_middle m c n h h0 h1 (ok c n _)

end Cert.KernelIdeal.Accum

end
-- ==== Proof.Final.lean ====
/-
  The array the region leaves, and the program's result.

  The result window's block at point t is rows  1024·(t/16) + p  and columns  2048·((t/8)%2) + q  of the
  [16384, 4096] array; it is written back only at the points with k = 7, when it holds the finished value.
  Every element (M, O) of the array lies in the block of exactly such a point — the one with row tile M / 1024,
  column tile O / 2048 and k = 7 — so the array ends holding, at every (M, O), the bias plus all eight chunks plus
  the low-rank term.  The one host line after the region casts [16384, 4096] back to [8, 2048, 4096].
-/
import proofs.«159519_j36567351558281_2_alg».proof.Proof.Accum
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.KernelIdeal.Accum

variable (m : (ℓ : Loc nD τ sig) → Buf (Elt Ideal) ℓ) (ρ : Dev nD → PrngReg)

/-- What the [16384, 4096] array ends holding. -/
def K (c : Dev nD) : S16384x4096.Idx → EReal := fun i =>
  (Bs m c (i 1).val + upto (xw (X m c) (Wt m c) (i 0).val (i 1).val) 7)
    + lora (X m c) (LB m c) (LA m c) two (i 0).val (i 1).val

/-- A point with k = 7 writes back its block of that array. -/
theorem flushed_eq (c : Dev nD) (t : Fin cfg0.N) (hf : (cfg0.win 5).flush t = true) :
    (dats m 0 c).flushed 5 t = ((cfg0.win 5).blk t).view.read (Elt Ideal) (K m c) := by
  have h7 : t.val % 8 = 7 := (flush0_5 t).mp hf
  show (cfg0.win 5).cut (grid0.coords t) ((dats m 0 c).after 5 t) = _
  rw [after0_5]
  funext y
  obtain ⟨p, q, rfl⟩ : ∃ (p : Fin 1024) (q : Fin 2048), y = ix2 p q := ⟨y 0, y 1, eq_ix2 y⟩
  show (outsAt0 m c t.val t.isLt).1 (ix2 p q) = K m c (((cfg0.win 5).blk t).view.emb (ix2 p q))
  rw [(Accum.ok m c t.val t.isLt).1 p q, if_pos h7, h7]
  unfold K
  have e0 : ((((cfg0.win 5).blk t).view.emb (ix2 p q)) 0).val = row t.val p.val := by
    show win0_5.index t 0 * 1024 + 1 * p.val = 1024 * (t.val / 16) + p.val; rw [(Blocks.idx5 t).1]; omega
  have e1 : ((((cfg0.win 5).blk t).view.emb (ix2 p q)) 1).val = col t.val q.val := by
    show win0_5.index t 1 * 2048 + 1 * q.val = 2048 * (t.val / 8 % 2) + q.val; rw [(Blocks.idx5 t).2]; omega
  rw [e0, e1]

/-- Every element of the array is in the block of a point that writes back. -/
theorem cover (c : Dev nD) (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hN : cfg0.N = 256 := N_0
  obtain ⟨t, ht⟩ : ∃ t : Fin cfg0.N, t.val = 8 * (2 * ((i 0).val / 1024) + (i 1).val / 2048) + 7 :=
    ⟨⟨8 * (2 * ((i 0).val / 1024) + (i 1).val / 2048) + 7, by rw [hN]; omega⟩, rfl⟩
  refine ⟨t, (flush0_5 t).mpr (by rw [ht]; omega), ?_⟩
  show i ∈ ((View.whole main_v5).slice (win0_5.rect t)).set
  rw [View.set_slice_whole, Rect.mem_set_unit]
  intro a
  match a with
  | ⟨0, _⟩ =>
    show win0_5.index t 0 * 1024 ≤ (i 0).val ∧ (i 0).val < win0_5.index t 0 * 1024 + 1024
    rw [(Blocks.idx5 t).1, ht]; omega
  | ⟨1, _⟩ =>
    show win0_5.index t 1 * 2048 ≤ (i 1).val ∧ (i 1).val < win0_5.index t 1 * 2048 + 2048
    rw [(Blocks.idx5 t).2, ht]; omega

/-- So the array ends at `K`. -/
theorem final (c : Dev nD) : (dats m 0 c).arrAt 5 cfg0.N = K m c :=
  (dats m 0 c).arrAt_eq_of_cover 5 (K m c) (flushed_eq m c) (cover c)

/-- The host line after the region: the program's result is that array cast to [8, 2048, 4096]. -/
theorem tail (c : Dev nD) :
    Pipeline.afterTail₀ cfgs (dats m) 0 (V0 m) [hostOps1] c main_v6
      = shapeCast S8x2048x4096 (K m c) shapeCasts_S16384x4096_S8x2048x4096 := by
  unfold Pipeline.afterTail₀
  show StableHlo.after hostOps1 _ (Proc.devRef .tc main_v6) = _
  after_results
  have e : Pipeline.withArrays (cfgs 0).spec c (V0 m c) (fun w => (dats m 0 c).arrAt w (cfgs 0).N)
      (Proc.devRef .tc main_v5) = K m c :=
    (Pipeline.withArrays_arr spec0 launch0.win.arr_inj c _ _ 5).trans (final m c)
  rw [e]
  rfl

end Cert.KernelIdeal.Final

end
-- ==== Proof.Target.lean ====
/-
  The value both programs compute, written once, over the argument arrays as the programs take them:
  for batch b, position s and output feature o,

      ( ∑_d x[b,s,d] · W[o,d]  +  bias[o] )  +  ( ∑_r ( ∑_d x[b,s,d] · lora_b[d,r] ) · lora_a[r,o] ) · 2 .
-/
import Idealize.ShloMosaic.PureOps.Ideal
import Idealize.ShloMosaic.Lib.ValueIdx

noncomputable section

namespace Cert.Target

open Idealize.ShloMosaic Idealize.ShloMosaic.ValueIdx

/-- The value at coordinates. -/
def Gc (x : (⟨3, ![8, 2048, 4096]⟩ : Shape).Idx → EReal) (w : (⟨2, ![4096, 4096]⟩ : Shape).Idx → EReal)
    (b : (⟨1, ![4096]⟩ : Shape).Idx → EReal) (la : (⟨2, ![8, 4096]⟩ : Shape).Idx → EReal)
    (lb : (⟨2, ![4096, 8]⟩ : Shape).Idx → EReal) (bb : Fin 8) (s : Fin 2048) (o : Fin 4096) : EReal :=
  (∑ d : Fin 4096, x (ix3 bb s d) * w (ix2 o d) + b (ix1 o))
    + (∑ r : Fin 8, (∑ d : Fin 4096, x (ix3 bb s d) * lb (ix2 d r)) * la (ix2 r o)) * Ideal.ofBits .f32 0x40000000#32

/-- The value as an array. -/
def G (x : (⟨3, ![8, 2048, 4096]⟩ : Shape).Idx → EReal) (w : (⟨2, ![4096, 4096]⟩ : Shape).Idx → EReal)
    (b : (⟨1, ![4096]⟩ : Shape).Idx → EReal) (la : (⟨2, ![8, 4096]⟩ : Shape).Idx → EReal)
    (lb : (⟨2, ![4096, 8]⟩ : Shape).Idx → EReal) : (⟨3, ![8, 2048, 4096]⟩ : Shape).Idx → EReal :=
  fun i => Gc x w b la lb ⟨(i 0).val, (i 0).isLt⟩ ⟨(i 1).val, (i 1).isLt⟩ ⟨(i 2).val, (i 2).isLt⟩

end Cert.Target

end
-- ==== Proof.Result.lean ====
/-
  The kernel's result is the common value of its arguments.

  The arrays the region finds are the arguments re-laid by the host lines before it: x cast from
  [8, 2048, 4096] to [16384, 4096] (so row 2048·b + s is (b, s)), the bias cast from [4096] to [1, 4096],
  and W, lora_b, lora_a changed to bf16, which changes no value over the extended reals.  Element
  (b, s, o) of the result is element (2048·b + s, o) of the [16384, 4096] array the region leaves; there the
  bias plus eight chunks plus the scaled low-rank term is, by the law of the arithmetic module, the
  reference's arrangement of the same sums.
-/
import proofs.«159519_j36567351558281_2_alg».proof.Proof.Final
import proofs.«159519_j36567351558281_2_alg».proof.Proof.Target
import Idealize.ShloMosaic.Lib.ValueLayout

noncomputable section

namespace Cert.KernelIdeal.Result

open Cert.KernelIdeal Cert.KernelIdeal.Gen Idealize.ShloMosaic Idealize.ShloMosaic.TcCoe Idealize.SL.Sem
open Idealize.ShloMosaic.ValueIdx Cert.Spec Cert.KernelIdeal.Accum

variable (m : (ℓ : Loc nD τ sig) → Buf (Elt Ideal) ℓ) (ρ : Dev nD → PrngReg)

/-! ## The arrays the region finds -/

theorem V_v4 (c : Dev nD) :
    V m c main_v4 = shapeCast S16384x4096 (m ((c : Thread nD τ).loc main_arg0)) shapeCasts_S8x2048x4096_S16384x4096 := by
  show StableHlo.after hostOps0 (fun b => m (c, b)) (Proc.devRef .tc main_v4) = _
  after_results
  rfl
theorem V_v3 (c : Dev nD) :
    V m c main_v3 = shapeCast S1x4096 (m ((c : Thread nD τ).loc main_arg2)) shapeCasts_S4096_S1x4096 := by
  show StableHlo.after hostOps0 (fun b => m (c, b)) (Proc.devRef .tc main_v3) = _
  after_results
  rfl
theorem V_v0 (c : Dev nD) :
    (V m c main_v0 : S4096x4096.Idx → EReal) = (m ((c : Thread nD τ).loc main_arg1) : S4096x4096.Idx → EReal) := by
  show StableHlo.after hostOps0 (fun b => m (c, b)) (Proc.devRef .tc main_v0) = _
  after_results
  rfl
theorem V_v1 (c : Dev nD) :
    (V m c main_v1 : S4096x8.Idx → EReal) = (m ((c : Thread nD τ).loc main_arg4) : S4096x8.Idx → EReal) := by
  show StableHlo.after hostOps0 (fun b => m (c, b)) (Proc.devRef .tc main_v1) = _
  after_results
  rfl
theorem V_v2 (c : Dev nD) :
    (V m c main_v2 : S8x4096.Idx → EReal) = (m ((c : Thread nD τ).loc main_arg3) : S8x4096.Idx → EReal) := by
  show StableHlo.after hostOps0 (fun b => m (c, b)) (Proc.devRef .tc main_v2) = _
  after_results
  rfl

/-! ## Their elements, from the arguments' -/

theorem X_at (c : Dev nD) (b : Fin 8) (s : Fin 2048) (d : Fin 4096) :
    X m c (2048 * b.val + s.val) d.val = m ((c : Thread nD τ).loc main_arg0) (ix3 b s d) := by
  unfold X
  rw [nat2_of_lt _ _ _ (by have := b.isLt; have := s.isLt; omega) d.isLt, V_v4]
  refine shapeCast_apply (s := S8x2048x4096) (t := S16384x4096) _ _ _ (ix3 b s d) ?_
  show (S8x2048x4096.rowMajor (ix3 b s d)).val = (S16384x4096.rowMajor (ix2 (⟨2048 * b.val + s.val, _⟩ : Fin 16384) (⟨d.val, d.isLt⟩ : Fin 4096))).val
  rw [Shape.rowMajor_val_three, Shape.rowMajor_val_two]
  show (b.val * 2048 + s.val) * 4096 + d.val = (2048 * b.val + s.val) * 4096 + d.val
  omega

theorem W_at (c : Dev nD) (o d : Fin 4096) : Wt m c o.val d.val = m ((c : Thread nD τ).loc main_arg1) (ix2 o d) := by
  unfold Wt
  rw [nat2_val]
  exact congrFun (V_v0 m c) (ix2 o d)

theorem LB_at (c : Dev nD) (d : Fin 4096) (r : Fin 8) : LB m c d.val r.val = m ((c : Thread nD τ).loc main_arg4) (ix2 d r) := by
  unfold LB
  rw [nat2_val]
  exact congrFun (V_v1 m c) (ix2 d r)

theorem LA_at (c : Dev nD) (r : Fin 8) (o : Fin 4096) : LA m c r.val o.val = m ((c : Thread nD τ).loc main_arg3) (ix2 r o) := by
  unfold LA
  rw [nat2_val]
  exact congrFun (V_v2 m c) (ix2 r o)

theorem Bs_at (c : Dev nD) (o : Fin 4096) : Bs m c o.val = m ((c : Thread nD τ).loc main_arg2) (ix1 o) := by
  unfold Bs
  rw [nat2_of_lt _ _ _ Nat.one_pos o.isLt, V_v3]
  exact shapeCast_a_1a_apply _ _ _ o

/-! ## The result -/

/-- The [16384, 4096] array the region leaves, cast to [8, 2048, 4096], is the common value. -/
theorem result_eq (c : Dev nD) :
    shapeCast S8x2048x4096 (Final.K m c) shapeCasts_S16384x4096_S8x2048x4096
      = Cert.Target.G (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, s, o, rfl⟩ : ∃ (b : Fin 8) (s : Fin 2048) (o : Fin 4096), i = ix3 b s o := ⟨i 0, i 1, i 2, eq_ix3 i⟩
  have hb := b.isLt
  have hs := s.isLt
  rw [shapeCast_apply (Final.K m c) shapeCasts_S16384x4096_S8x2048x4096 (ix3 b s o)
    (ix2 (⟨2048 * b.val + s.val, by omega⟩ : Fin 16384) o) (by
      rw [Shape.rowMajor_val_two, Shape.rowMajor_val_three]
      show (2048 * b.val + s.val) * 4096 + o.val = (b.val * 2048 + s.val) * 4096 + o.val
      omega)]
  show (Bs m c o.val + upto (xw (X m c) (Wt m c) (2048 * b.val + s.val) o.val) 7)
      + lora (X m c) (LB m c) (LA m c) two (2048 * b.val + s.val) o.val = _
  rw [join (X m c) (Wt m c) (LA m c) (LB m c) (Bs m c) two ofBits_two]
  simp only [X_at, W_at, LB_at, LA_at, Bs_at]
  rfl

/-- The kernel's run, read: its result at the common value of its arguments, the arguments unchanged. -/
theorem run : θ_run defs (onTc (τ := τ) (main (F := Ideal))) ⟨m, fun _ => 0, ρ⟩ fun r => ∀ c : Dev nD,
      r.2.mem ((c : Thread nD τ).loc main_v6)
        = Cert.Target.G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(((h c).2 main_v6 (Pipeline.mem_restRefs_of main_v6 (by decide) (by decide))).trans (Final.tail m c)).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference computes the common value: its ten host lines, read one element at a time, are
  ( x · Wᵀ + bias ) + ( (x · lora_b) · lora_a ) · 2  at (b, s, o), each product a plain sum over its contracted
  coordinate and each broadcast a read of its operand at the matching coordinate.
-/
import proofs.«159519_j36567351558281_2_alg».proof.Proof.Gen.ReferenceIdeal.Read
import proofs.«159519_j36567351558281_2_alg».proof.Proof.Target

noncomputable section

namespace Cert.ReferenceIdeal.RefValue

open Cert.ReferenceIdeal Cert.ReferenceIdeal.Gen Cert.ReferenceIdeal.Read
open Idealize.ShloMosaic Idealize.ShloMosaic.ValueIdx

/-! The coordinates each line reads its operands at. -/

theorem l0 (i : S8x2048x4096.Idx) (k : Fin 4096) :
    lidx_main_v0 i k = ix3 (⟨(i 0).val, (i 0).isLt⟩ : Fin 8) (⟨(i 1).val, (i 1).isLt⟩ : Fin 2048) k :=
  funext fun a => Fin.ext (by match a with | ⟨0, _⟩ => rfl | ⟨1, _⟩ => rfl | ⟨2, _⟩ => rfl)
theorem r0 (i : S8x2048x4096.Idx) (k : Fin 4096) :
    ridx_main_v0 i k = ix2 (⟨(i 2).val, (i 2).isLt⟩ : Fin 4096) k :=
  funext fun a => Fin.ext (by match a with | ⟨0, _⟩ => rfl | ⟨1, _⟩ => rfl)
theorem b12 (i : S8x2048x4096.Idx) :
    idx_main_v1 (idx_main_v2 i) = ix1 (⟨(i 2).val, (i 2).isLt⟩ : Fin 4096) :=
  funext fun a => Fin.ext (by match a with | ⟨0, _⟩ => rfl)
theorem l45 (i : S8x2048x4096.Idx) (r : Fin 8) (d : Fin 4096) :
    lidx_main_v4 (lidx_main_v5 i r) d = ix3 (⟨(i 0).val, (i 0).isLt⟩ : Fin 8) (⟨(i 1).val, (i 1).isLt⟩ : Fin 2048) d :=
  funext fun a => Fin.ext (by match a with | ⟨0, _⟩ => rfl | ⟨1, _⟩ => rfl | ⟨2, _⟩ => rfl)
theorem r45 (i : S8x2048x4096.Idx) (r : Fin 8) (d : Fin 4096) :
    ridx_main_v4 (lidx_main_v5 i r) d = ix2 d r :=
  funext fun a => Fin.ext (by match a with | ⟨0, _⟩ => rfl | ⟨1, _⟩ => rfl)
theorem r5 (i : S8x2048x4096.Idx) (r : Fin 8) :
    ridx_main_v5 i r = ix2 r (⟨(i 2).val, (i 2).isLt⟩ : Fin 4096) :=
  funext fun a => Fin.ext (by match a with | ⟨0, _⟩ => rfl | ⟨1, _⟩ => rfl)

/-- The reference's result is the common value of its arguments. -/
theorem ref_is_G (x0 : (⟨S8x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S8x4096, .f32⟩ : BufTy).Contents (Elt Ideal))
    (x4 : (⟨S4096x8, .f32⟩ : BufTy).Contents (Elt Ideal)) :
    val_main_v8 (F := Ideal) x0 x1 x2 x3 x4 = Cert.Target.G x0 x1 x2 x3 x4 := by
  funext i
  rw [val_main_v8_apply, val_main_v3_apply, val_main_v7_apply, val_main_v0_apply, val_main_v2_apply, val_main_v1_apply,
    val_main_v5_apply, val_main_v6_apply, val_main_cst_apply]
  simp only [val_main_v4_apply, l0, r0, b12, l45, r45, r5, Ideal.addf_def, Ideal.mulf_def, Ideal.ofBits_def]
  rfl

end Cert.ReferenceIdeal.RefValue

end
-- ==== Proof.lean ====
/-
  The certificate.  A linear layer with a rank-8 low-rank update,

      y[b,s,o] = ( ∑_d x[b,s,d] · W[o,d] + bias[o] ) + ( ∑_r ( ∑_d x[b,s,d] · lora_b[d,r] ) · lora_a[r,o] ) · 2 ,

  computed by a tiled kernel (row tiles of 1024, column tiles of 2048, the contraction in eight chunks of 512
  accumulated into the resident output block from the bias, the low-rank factor accumulated alongside from zero
  and folded in at the last chunk) against the same formula written with whole sums.  Over the extended reals
  the two are one function of the arguments: sums regroup freely, and the only step that is more than
  regrouping — scaling a finite sum by two, term by term or all at once — holds because two is a non-negative
  real.  The three frames are the generated ones (the reference's is its run with the result dropped); the
  idealization rewrote nothing.
-/
import proofs.«159519_j36567351558281_2_alg».proof.Defs
import proofs.«159519_j36567351558281_2_alg».proof.Proof.Gen.Kernel
import proofs.«159519_j36567351558281_2_alg».proof.Proof.Gen.Kernel.Skeleton
import proofs.«159519_j36567351558281_2_alg».proof.Proof.Gen.Kernel.Launch
import proofs.«159519_j36567351558281_2_alg».proof.Proof.Gen.Kernel.Points
import proofs.«159519_j36567351558281_2_alg».proof.Proof.Gen.Kernel.Frame
import proofs.«159519_j36567351558281_2_alg».proof.Proof.Gen.KernelIdeal
import proofs.«159519_j36567351558281_2_alg».proof.Proof.Gen.KernelIdeal.Skeleton
import proofs.«159519_j36567351558281_2_alg».proof.Proof.Gen.KernelIdeal.Launch
import proofs.«159519_j36567351558281_2_alg».proof.Proof.Gen.KernelIdeal.Points
import proofs.«159519_j36567351558281_2_alg».proof.Proof.Gen.KernelIdeal.Frame
import proofs.«159519_j36567351558281_2_alg».proof.Proof.Gen.ReferenceIdeal
import proofs.«159519_j36567351558281_2_alg».proof.Proof.Gen.ReferenceIdeal.Run
import proofs.«159519_j36567351558281_2_alg».proof.Proof.Gen.ReferenceIdeal.Read
import proofs.«159519_j36567351558281_2_alg».proof.Proof.Gen.Pre_finite_inputs
import proofs.«159519_j36567351558281_2_alg».proof.Proof.Result
import proofs.«159519_j36567351558281_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both programs end, from memories that agree on the arguments, with the common value of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Target.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.ref_is_G,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
